-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S65536x256 .f32) (main_arg1 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S65536x256 : Shape := ⟨2, ![65536, 256]⟩
abbrev S256x256 : Shape := ⟨2, ![256, 256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256x256, .f32⟩
  | .hbm, ⟨3, _⟩ => ⟨S65536x256, .f32⟩
  | .hbm, ⟨4, _⟩ => ⟨S1x256, .f32⟩
  | .hbm, ⟨5, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S256x256_S256x256_1_0 : S256x256.Transposes [1, 0] S256x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  reduces_S2048x256_S2048 : S2048x256.Reduces [1] S2048
  shapeCasts_S2048_S2048x1 : S2048.ShapeCasts S2048x1
  reduces_S256x256_S256 : S256x256.Reduces [0] S256
  shapeCasts_S256_S1x256 : S256.ShapeCasts S1x256
  broadcasts_S2048x1_S2048x256 : S2048x1.Broadcasts S2048x256
  broadcasts_S1x256_S2048x256 : S1x256.Broadcasts S2048x256
  reduces_S2048x256_S256 : S2048x256.Reduces [0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2048x256_S2048x256 : S2048x256.ShapeCasts S2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S65536x256.size a
  hwx1_2 : ∀ i : grid1.Coords, EltTy.bits .f32 = 32 ∨ (Rect.block (s := S65536x256) S2048x256.size (cc1_transform_2 i) (hinb1_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S_ : Shape := ⟨0, ![]⟩
abbrev S65536 : Shape := ⟨1, ![65536]⟩
abbrev S65536x1 : Shape := ⟨2, ![65536, 1]⟩
abbrev S256 : Shape := ⟨1, ![256]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S256x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S256, .f32⟩
  | .hbm, ⟨39, _⟩ => ⟨S1x256, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S65536x256, .f32⟩
  | .hbm, ⟨46, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S256x256_S256_d1 : S256x256.ReducesTo [1] S256
  bcast_S256_S1x256_1 : S256.BroadcastsInDim S1x256 (![1] : Fin 1 → Fin S1x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  transposes_S256x256_S256x256_1_0 : S256x256.Transposes [1, 0] S256x256
  bcast_S_S65536x256 : S_.BroadcastsInDim S65536x256 (![] : Fin 0 → Fin S65536x256.rank)
  reducesTo_S65536x256_S256_d0 : S65536x256.ReducesTo [0] S256
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  Soft cluster assignment, as one function of the data.

  For a point x (a row of 256 features) and 256 centroids c_k:
    dist x k   = max (|x|² + |c_k|² − 2·⟨x, c_k⟩, 0)                 the squared distance, clamped at zero
    tKer x k   = 1 / (1 + dist x k)                                   the Student-t kernel with one degree of freedom
    soft x k   = tKer x k / Σ_j tKer x j                              the row-normalised assignment q
  and, for a row q of assignments and the column masses m_k = Σ_n q_n k over all 65536 points,
    sharp q m k  = q_k² / m_k
    target q m k = sharp q m k / Σ_j sharp q m j                       the target distribution p.
  Everything is read on the extended reals; the literal 2 is kept as its word and never evaluated.

  Three facts of arithmetic close the file. Division by one is the identity, and the power −1 of a number
  1 + max a 0 (at least one, possibly +∞) is its reciprocal: so a kernel that writes 1 / (1 + d) and a program
  that writes (1 + d / 1) ^ (−1) compute one function, at +∞ too (both give 0). And a sum over the 65536 rows is the
  sum over 32 consecutive blocks of 2048 rows of the blocks' sums: addition of extended reals is commutative
  and associative, so no finiteness is asked.
-/
import Idealize.ShloMosaic.PureOps.Ideal
import Idealize.ShloMosaic.PureOps.IdealRules
import Idealize.ShloMosaic.Lib.ValueIdx

noncomputable section

namespace Cert.SoftAssign

open Idealize.ShloMosaic Idealize.ShloMosaic.ValueIdx

/-- Points × features, and also points × clusters: 65536 rows of 256. -/
abbrev Pts : Shape := ⟨2, ![65536, 256]⟩
/-- Clusters × features. -/
abbrev Cen : Shape := ⟨2, ![256, 256]⟩
/-- One row of 256 column masses, kept with its unit leading axis. -/
abbrev Row : Shape := ⟨2, ![1, 256]⟩

/-- The literal 2, as its word. -/
def two : EReal := Ideal.ofBits .f32 0x40000000#32

/-- The squared distance from the point x to centroid k, by the expansion |x|² + |c_k|² − 2⟨x, c_k⟩, clamped at zero. -/
def dist (x : Fin 256 → EReal) (c : Fin 256 → Fin 256 → EReal) (k : Fin 256) : EReal :=
  max (((∑ d : Fin 256, x d * x d) + ∑ d : Fin 256, c k d * c k d) - two * ∑ d : Fin 256, x d * c k d) 0

/-- The Student-t kernel. -/
def tKer (x : Fin 256 → EReal) (c : Fin 256 → Fin 256 → EReal) (k : Fin 256) : EReal :=
  Ideal.div 1 (1 + dist x c k)

/-- The assignment of the point x: its kernel values divided by their sum over the clusters. -/
def soft (x : Fin 256 → EReal) (c : Fin 256 → Fin 256 → EReal) (k : Fin 256) : EReal :=
  Ideal.div (tKer x c k) (∑ j : Fin 256, tKer x c j)

/-- The squared assignment over the cluster's mass. -/
def sharp (q m : Fin 256 → EReal) (k : Fin 256) : EReal := Ideal.div (q k * q k) (m k)

/-- The target distribution of one point: the sharpened row divided by its sum. -/
def target (q m : Fin 256 → EReal) (k : Fin 256) : EReal :=
  Ideal.div (sharp q m k) (∑ j : Fin 256, sharp q m j)

/-- Row n of an array of points. -/
def row (z : Pts.Idx → EReal) (n : Fin 65536) : Fin 256 → EReal := fun d => z (ix2 n d)

/-- The same at a natural number, zero past the array: what lets a running sum over blocks be stated without bounds. -/
def rowN (z : Pts.Idx → EReal) (n : ℕ) : Fin 256 → EReal :=
  if h : n < 65536 then row z ⟨n, h⟩ else fun _ => 0

theorem rowN_val (z : Pts.Idx → EReal) (n : Fin 65536) : rowN z n.val = row z n := by
  unfold rowN; rw [dif_pos n.isLt]

/-- The centroids as a matrix. -/
def cen (c : Cen.Idx → EReal) : Fin 256 → Fin 256 → EReal := fun k d => c (ix2 k d)

/-- The assignment array q. -/
def Q (z : Pts.Idx → EReal) (c : Cen.Idx → EReal) : Pts.Idx → EReal :=
  fun i => soft (row z ⟨(i 0).val, idx2_lt0 i⟩) (cen c) ⟨(i 1).val, idx2_lt1 i⟩

theorem Q_apply (z : Pts.Idx → EReal) (c : Cen.Idx → EReal) (n : Fin 65536) (k : Fin 256) :
    Q z c (ix2 n k) = soft (row z n) (cen c) k := rfl

/-- The mass of cluster k: the sum of its assignments over all points. -/
def mass (z : Pts.Idx → EReal) (c : Cen.Idx → EReal) (k : Fin 256) : EReal :=
  ∑ n : Fin 65536, soft (row z n) (cen c) k

/-- The masses as a row with a unit leading axis. -/
def massRow (z : Pts.Idx → EReal) (c : Cen.Idx → EReal) : Row.Idx → EReal :=
  fun j => mass z c ⟨(j 1).val, idx2_lt1 j⟩

theorem massRow_apply (z : Pts.Idx → EReal) (c : Cen.Idx → EReal) (k : Fin 256) :
    massRow z c (ix2 0 k) = mass z c k := rfl

/-- The target array from ANY assignment array q and row of masses m. -/
def targetOf (q : Pts.Idx → EReal) (m : Row.Idx → EReal) : Pts.Idx → EReal :=
  fun i => target (fun k => q (ix2 ⟨(i 0).val, idx2_lt0 i⟩ k)) (fun k => m (ix2 0 k)) ⟨(i 1).val, idx2_lt1 i⟩

theorem targetOf_apply (q : Pts.Idx → EReal) (m : Row.Idx → EReal) (n : Fin 65536) (k : Fin 256) :
    targetOf q m (ix2 n k) = target (fun j => q (ix2 n j)) (fun j => m (ix2 0 j)) k := rfl

/-- The target array p of the data. -/
def P (z : Pts.Idx → EReal) (c : Cen.Idx → EReal) : Pts.Idx → EReal := targetOf (Q z c) (massRow z c)

/-! ## The words 1 and −1 -/

theorem word_one : Ideal.ofBits .f32 0x3F800000#32 = 1 := IdealRules.sign_bit.ideal_onePat .f32
theorem word_neg_one : Ideal.ofBits .f32 0xBF800000#32 = -1 := IdealRules.sign_bit.ideal_negOnePat .f32
theorem word_zero : Ideal.ofBits .f32 0x00000000#32 = 0 := IdealRules.sign_bit.ideal_zero .f32

/-! ## Division by one; the reciprocal as a power -/

theorem div_one (x : EReal) : Ideal.div x 1 = x := by
  unfold Ideal.div
  rw [if_neg one_ne_zero, ← EReal.coe_one, ← EReal.coe_inv, inv_one, EReal.coe_one, mul_one]

/-- A number 1 + max a 0 is a real at least one, or +∞; its power −1 is its reciprocal in both cases. -/
theorem pow_neg_one (a : EReal) :
    Ideal.pow (1 + Ideal.div (max a 0) 1) (-1) = Ideal.div 1 (1 + max a 0) := by
  rw [div_one]
  have hm : (-1 : EReal) = ((-1 : ℝ) : EReal) := by rw [EReal.coe_neg, EReal.coe_one]
  have hreal : ∀ r : ℝ, 0 ≤ r →
      Ideal.pow (1 + (r : EReal)) (-1) = Ideal.div 1 (1 + (r : EReal)) := fun r hr => by
    have hx : (1 : ℝ) + r ≠ 0 := by linarith
    rw [hm, ← EReal.coe_one, ← EReal.coe_add, Ideal.pow_coe_coe]
    unfold Ideal.div
    rw [if_neg (by exact_mod_cast hx), ← EReal.coe_inv, ← EReal.coe_mul, one_mul]
    exact congrArg _ (Real.rpow_neg_one _)
  induction a using EReal.rec with
  | bot => rw [max_eq_right bot_le]; simpa using hreal 0 le_rfl
  | top =>
    rw [max_eq_left le_top, EReal.add_top_of_ne_bot (by rw [← EReal.coe_one]; exact EReal.coe_ne_bot 1), Ideal.pow_top]
    unfold Ideal.div
    rw [if_neg (by simp), EReal.inv_top, mul_zero, if_neg (by simp), if_neg (by simp)]
  | coe r =>
    have hmax : max (r : EReal) 0 = ((max r 0 : ℝ) : EReal) := by
      rcases le_total r 0 with h | h
      · rw [max_eq_right h, max_eq_right (by exact_mod_cast h), EReal.coe_zero]
      · rw [max_eq_left h, max_eq_left (by exact_mod_cast h)]
    rw [hmax]
    exact hreal _ (le_max_right _ _)

/-! ## A sum over the rows, block by block -/

/-- The sum over 65536 rows is the sum over 32 blocks of the sums over each block's 2048 rows. -/
theorem sum_rows_blocks {M : Type*} [AddCommMonoid M] (g : ℕ → M) :
    ∑ n : Fin 65536, g n.val = ∑ s ∈ Finset.range 32, ∑ r : Fin 2048, g (2048 * s + r.val) := by
  rw [← Fin.sum_univ_eq_sum_range (fun s => ∑ r : Fin 2048, g (2048 * s + r.val)) 32]
  rw [← Fintype.sum_prod_type' (fun (s : Fin 32) (r : Fin 2048) => g (2048 * s.val + r.val))]
  exact (Equiv.sum_comp (finProdFinEquiv (m := 32) (n := 2048)) (fun n : Fin (32 * 2048) => g n.val)).symm.trans
    (Finset.sum_congr rfl fun p _ => by
      show g (p.2.val + 2048 * p.1.val) = _
      rw [add_comm])

end Cert.SoftAssign

end
-- ==== Proof.RefValue.lean ====
/-
  The reference program's two results are the assignment array q and the target array p of the data.

  Read one operation at a time: the row norms |z_n|² and |c_k|² as sums of squares, the inner products as a
  contraction against the transposed centroids, the clamped distance, the Student-t kernel written as the power −1 of
  1 + d / 1 (which is 1 / (1 + d)), its row normalisation, the column masses as a sum over all points, and the second
  row normalisation of q² / mass.
-/
import proofs.«103345_j72292889527017_1_alg».proof.Proof.Spec
import proofs.«103345_j72292889527017_1_alg».proof.Proof.Gen.ReferenceIdeal.Read

noncomputable section

namespace Cert.ReferenceIdeal.RefValue

open Idealize.ShloMosaic Idealize.ShloMosaic.ValueIdx Cert.ReferenceIdeal Cert.ReferenceIdeal.Read Cert.SoftAssign

/-- The broadcast row norm: at (n, k) it is |z_n|², the sum of the squares of row n. -/
theorem rowNorm_at (x0 : (⟨S65536x256, .f32⟩ : BufTy).Contents (Elt Ideal)) (n : Fin 65536) (k : Fin 256) :
    val_main_v6 (F := Ideal) x0 (ix2 n k) = ∑ d : Fin 256, x0 (ix2 n d) * x0 (ix2 n d) := by
  have e : ∀ d : Fin 256, idx_main_v1 (idx_main_v2 (idx_main_v6 (ix2 n k))) d = ix2 n d := fun d =>
    funext fun a => Fin.ext (by match a with | ⟨0, _⟩ => rfl | ⟨1, _⟩ => rfl)
  rw [val_main_v6_apply, val_main_v2_apply, val_main_v1_apply]
  simp only [e, val_main_v0_apply, val_main_cst_apply, Ideal.mulf_def, Ideal.ofBits_def, word_zero, zero_add]

/-- The broadcast centroid norm: at (n, k) it is |c_k|². -/
theorem cenNorm_at (x1 : (⟨S256x256, .f32⟩ : BufTy).Contents (Elt Ideal)) (n : Fin 65536) (k : Fin 256) :
    val_main_v7 (F := Ideal) x1 (ix2 n k) = ∑ d : Fin 256, x1 (ix2 k d) * x1 (ix2 k d) := by
  have e : ∀ d : Fin 256, idx_main_v4 (idx_main_v5 (idx_main_v7 (ix2 n k))) d = ix2 k d := fun d =>
    funext fun a => Fin.ext (by match a with | ⟨0, _⟩ => rfl | ⟨1, _⟩ => rfl)
  rw [val_main_v7_apply, val_main_v5_apply, val_main_v4_apply]
  simp only [e, val_main_v3_apply, val_main_cst_0_apply, Ideal.mulf_def, Ideal.ofBits_def, word_zero, zero_add]

/-- The contraction against the transposed centroids: at (n, k) it is the inner product ⟨z_n, c_k⟩. -/
theorem inner_at (x0 : (⟨S65536x256, .f32⟩ : BufTy).Contents (Elt Ideal)) (x1 : (⟨S256x256, .f32⟩ : BufTy).Contents (Elt Ideal))
    (n : Fin 65536) (k : Fin 256) :
    val_main_v10 (F := Ideal) x0 x1 (ix2 n k) = ∑ d : Fin 256, x0 (ix2 n d) * x1 (ix2 k d) := by
  have el : ∀ d : Fin 256, lidx_main_v10 (ix2 n k) d = ix2 n d := fun d =>
    funext fun a => Fin.ext (by match a with | ⟨0, _⟩ => rfl | ⟨1, _⟩ => rfl)
  have er : ∀ d : Fin 256, idx_main_v9 (ridx_main_v10 (ix2 n k) d) = ix2 k d := fun d =>
    funext fun a => Fin.ext (by match a with | ⟨0, _⟩ => rfl | ⟨1, _⟩ => rfl)
  rw [val_main_v10_apply]
  simp only [val_main_v9_apply, el, er]

/-- The clamped squared distance at (n, k). -/
theorem dist_at (x0 : (⟨S65536x256, .f32⟩ : BufTy).Contents (Elt Ideal)) (x1 : (⟨S256x256, .f32⟩ : BufTy).Contents (Elt Ideal))
    (n : Fin 65536) (k : Fin 256) :
    val_main_v15 (F := Ideal) x0 x1 (ix2 n k) = SoftAssign.dist (row x0 n) (cen x1) k := by
  rw [val_main_v15_apply, val_main_v13_apply, val_main_v8_apply, val_main_v12_apply, val_main_v14_apply,
    val_main_v11_apply, rowNorm_at, cenNorm_at, inner_at]
  simp only [val_main_cst_1_apply, val_main_cst_2_apply, Ideal.mulf_def, Ideal.addf_def, Ideal.subf_def,
    Ideal.maximumf_def, Ideal.ofBits_def, word_zero]
  rfl

/-- The Student-t kernel at (n, k): the power −1 of 1 + d / 1 is 1 / (1 + d). -/
theorem kernel_at (x0 : (⟨S65536x256, .f32⟩ : BufTy).Contents (Elt Ideal)) (x1 : (⟨S256x256, .f32⟩ : BufTy).Contents (Elt Ideal))
    (n : Fin 65536) (k : Fin 256) :
    val_main_v21 (F := Ideal) x0 x1 (ix2 n k) = tKer (row x0 n) (cen x1) k := by
  rw [val_main_v21_apply, val_main_v19_apply, val_main_v17_apply, val_main_v18_apply, val_main_v16_apply,
    val_main_v20_apply, dist_at]
  simp only [val_main_cst_3_apply, val_main_cst_4_apply, val_main_cst_5_apply, Ideal.addf_def, Ideal.hostDivf_def,
    Ideal.hostPowf_def, Ideal.ofBits_def, word_one, word_neg_one]
  unfold tKer SoftAssign.dist
  exact pow_neg_one _

/-- The broadcast row sum of the kernel values: at (n, k) it is Σ_j of the kernel at (n, j). -/
theorem kernelSum_at (x0 : (⟨S65536x256, .f32⟩ : BufTy).Contents (Elt Ideal)) (x1 : (⟨S256x256, .f32⟩ : BufTy).Contents (Elt Ideal))
    (n : Fin 65536) (k : Fin 256) :
    val_main_v24 (F := Ideal) x0 x1 (ix2 n k) = ∑ j : Fin 256, tKer (row x0 n) (cen x1) j := by
  have e : ∀ j : Fin 256, idx_main_v22 (idx_main_v23 (idx_main_v24 (ix2 n k))) j = ix2 n j := fun j =>
    funext fun a => Fin.ext (by match a with | ⟨0, _⟩ => rfl | ⟨1, _⟩ => rfl)
  rw [val_main_v24_apply, val_main_v23_apply, val_main_v22_apply]
  simp only [e, kernel_at, val_main_cst_6_apply, Ideal.ofBits_def, word_zero, zero_add]

/-- The assignment at (n, k): the kernel value over its row sum. -/
theorem assign_at (x0 : (⟨S65536x256, .f32⟩ : BufTy).Contents (Elt Ideal)) (x1 : (⟨S256x256, .f32⟩ : BufTy).Contents (Elt Ideal))
    (n : Fin 65536) (k : Fin 256) :
    val_main_v25 (F := Ideal) x0 x1 (ix2 n k) = soft (row x0 n) (cen x1) k := by
  rw [val_main_v25_apply, kernel_at, kernelSum_at, Ideal.hostDivf_def]
  rfl

/-- The reference's second result is the assignment array. -/
theorem assign_eq (x0 : (⟨S65536x256, .f32⟩ : BufTy).Contents (Elt Ideal)) (x1 : (⟨S256x256, .f32⟩ : BufTy).Contents (Elt Ideal)) :
    val_main_v25 (F := Ideal) x0 x1 = Q x0 x1 := by
  funext i
  obtain ⟨n, k, rfl⟩ : ∃ (n : Fin 65536) (k : Fin 256), i = ix2 n k := ⟨i 0, i 1, eq_ix2 i⟩
  rw [Q_apply]
  exact assign_at x0 x1 n k

/-- The column mass of cluster k: the sum over all 65536 points of their assignments to k. -/
theorem mass_at (x0 : (⟨S65536x256, .f32⟩ : BufTy).Contents (Elt Ideal)) (x1 : (⟨S256x256, .f32⟩ : BufTy).Contents (Elt Ideal))
    (k : Fin 256) :
    val_main_v27 (F := Ideal) x0 x1 (ix1 k) = mass x0 x1 k := by
  have e : ∀ n : Fin 65536, idx_main_v27 (ix1 k) n = ix2 n k := fun n =>
    funext fun a => Fin.ext (by match a with | ⟨0, _⟩ => rfl | ⟨1, _⟩ => rfl)
  rw [val_main_v27_apply]
  simp only [e, assign_at, val_main_cst_7_apply, Ideal.ofBits_def, word_zero, zero_add]
  rfl

/-- The broadcast masses: at (n, k) the mass of cluster k, whatever the point n. -/
theorem massBcast_at (x0 : (⟨S65536x256, .f32⟩ : BufTy).Contents (Elt Ideal)) (x1 : (⟨S256x256, .f32⟩ : BufTy).Contents (Elt Ideal))
    (n : Fin 65536) (k : Fin 256) :
    val_main_v29 (F := Ideal) x0 x1 (ix2 n k) = mass x0 x1 k := by
  have e : idx_main_v28 (idx_main_v29 (ix2 n k)) = ix1 k :=
    funext fun a => Fin.ext (by match a with | ⟨0, _⟩ => rfl)
  rw [val_main_v29_apply, val_main_v28_apply, e, mass_at]

/-- The sharpened assignment at (n, k): q² over the mass of cluster k. -/
theorem sharp_at (x0 : (⟨S65536x256, .f32⟩ : BufTy).Contents (Elt Ideal)) (x1 : (⟨S256x256, .f32⟩ : BufTy).Contents (Elt Ideal))
    (n : Fin 65536) (k : Fin 256) :
    val_main_v30 (F := Ideal) x0 x1 (ix2 n k)
      = sharp (fun j => Q x0 x1 (ix2 n j)) (fun j => massRow x0 x1 (ix2 0 j)) k := by
  rw [val_main_v30_apply, val_main_v26_apply, massBcast_at, assign_eq, Ideal.hostDivf_def, Ideal.mulf_def]
  rfl

/-- The broadcast row sum of the sharpened assignments. -/
theorem sharpSum_at (x0 : (⟨S65536x256, .f32⟩ : BufTy).Contents (Elt Ideal)) (x1 : (⟨S256x256, .f32⟩ : BufTy).Contents (Elt Ideal))
    (n : Fin 65536) (k : Fin 256) :
    val_main_v33 (F := Ideal) x0 x1 (ix2 n k)
      = ∑ j : Fin 256, sharp (fun j => Q x0 x1 (ix2 n j)) (fun j => massRow x0 x1 (ix2 0 j)) j := by
  have e : ∀ j : Fin 256, idx_main_v31 (idx_main_v32 (idx_main_v33 (ix2 n k))) j = ix2 n j := fun j =>
    funext fun a => Fin.ext (by match a with | ⟨0, _⟩ => rfl | ⟨1, _⟩ => rfl)
  rw [val_main_v33_apply, val_main_v32_apply, val_main_v31_apply]
  simp only [e, sharp_at, val_main_cst_8_apply, Ideal.ofBits_def, word_zero, zero_add]

/-- The reference's first result is the target array. -/
theorem target_eq (x0 : (⟨S65536x256, .f32⟩ : BufTy).Contents (Elt Ideal)) (x1 : (⟨S256x256, .f32⟩ : BufTy).Contents (Elt Ideal)) :
    val_main_v34 (F := Ideal) x0 x1 = P x0 x1 := by
  funext i
  obtain ⟨n, k, rfl⟩ : ∃ (n : Fin 65536) (k : Fin 256), i = ix2 n k := ⟨i 0, i 1, eq_ix2 i⟩
  rw [val_main_v34_apply, sharp_at, sharpSum_at, Ideal.hostDivf_def]
  unfold P
  rw [targetOf_apply]
  rfl

end Cert.ReferenceIdeal.RefValue

end
-- ==== Proof.ValueRun.lean ====
/-
  The run of the whole program, with its two result arrays named.

  The program is one host stretch (the transposition of the centroids) followed by the two calls. The buffer contents at
  each boundary are a fold from the launch memory: after the stretch; after the first call, its arrays at what its
  write-backs leave; after the second call likewise. The launch over these three segments ends with every unscoped
  buffer at the last boundary's contents, so the final state is read there not only at the two arguments (which end as
  launched) but also at the two results.
-/
import proofs.«103345_j72292889527017_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result arrays end at the last boundary's
    contents and the two argument arrays as launched. -/
theorem run_results : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_v1_0) = W3 m ρ c (Proc.devRef .tc main_v1_0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       h c _ (mem_uc main_v1_0 (by decide)),
       (h c _ (mem_uc main_arg0 (by decide))).trans (W3_main_arg0 m ρ c),
       (h c _ (mem_uc main_arg1 (by decide))).trans (W3_main_arg1 m ρ c)⟩)

end Cert.KernelIdeal.ValueRun

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.Payload.lean ====
/-
  The kernels' arithmetic, read at an entry.

  First kernel, on a tile of 2048 points x0 and the transposed centroids x1 (features × clusters): the value it
  stores for point r and cluster k is the soft assignment of row r against the centroids read through the
  transposition; the value it adds into the running row of column masses is, at cluster k, what was there plus the
  sum over the tile's 2048 points of their assignments to k; the row it clears to is zero.
  Second kernel, on a tile of assignments v0 and the row of masses v2: the target distribution of row r at cluster k.

  Every operation but four kinds acts entry by entry. The four: a sum along one axis (an entry of the result is the
  sum of the operand over that axis's coordinates); a vector of row statistics viewed as a column and repeated along
  the lanes, or a vector of column statistics viewed as a row and repeated down the rows (an entry of the result is
  the statistic of its own row, or column); the product of two matrices into a zero accumulator (an entry is the sum
  over the shared axis of the products); and a change of float format, which is the identity on extended reals.
-/
import proofs.«103345_j72292889527017_1_alg».proof.Proof.Spec
import proofs.«103345_j72292889527017_1_alg».proof.Proof.Gen.KernelIdeal.Skeleton
import proofs.«103345_j72292889527017_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.SoftAssign Cert.Keepdims

/-! ## The sums along one axis, read at an entry -/

/-- The sum along the 256 lanes of a 2048 × 256 matrix, at row r. -/
theorem laneSum_apply (src : FVec Ideal S2048x256 .f32) (h : S2048x256.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The sum down the 2048 rows of a 2048 × 256 matrix, at column k. -/
theorem colSum_apply (src : FVec Ideal S2048x256 .f32) (h : S2048x256.Reduces [0] S256) (hφ : FKind.Formats .f32)
    (hacc : (0x00000000#32 : BitVec 32) = 0x00000000#32) (k : Fin 256) :
    multiReduction (F := Ideal) .add [0] S256 src 0x00000000#32 h hφ hacc (ix1 k) = ∑ r : Fin 2048, src (ix2 r k) := by
  refine (Ideal.multiReduction_add_single src 0x00000000#32 h hφ hacc (ix1 k)).trans ?_
  refine Finset.sum_congr rfl fun r _ => congrArg src ?_
  funext a
  match a with
  | ⟨0, _⟩ => rfl
  | ⟨1, _⟩ => rfl

/-- The sum down the 256 rows of a 256 × 256 matrix, at column k. -/
theorem colSum256_apply (src : FVec Ideal S256x256 .f32) (h : S256x256.Reduces [0] S256) (hφ : FKind.Formats .f32)
    (hacc : (0x00000000#32 : BitVec 32) = 0x00000000#32) (k : Fin 256) :
    multiReduction (F := Ideal) .add [0] S256 src 0x00000000#32 h hφ hacc (ix1 k) = ∑ d : Fin 256, src (ix2 d k) := by
  refine (Ideal.multiReduction_add_single src 0x00000000#32 h hφ hacc (ix1 k)).trans ?_
  refine Finset.sum_congr rfl fun d _ => congrArg src ?_
  funext a
  match a with
  | ⟨0, _⟩ => rfl
  | ⟨1, _⟩ => rfl

/-! ## Statistics of rows and columns, spread back over the tile -/

/-- Row sums kept as a column and repeated along the lanes: at (r, j) the sum of row r. -/
theorem rowSumSpread_apply (w : FVec Ideal S2048x256 .f32) (h : S2048x256.Reduces [1] S2048) (hφ : FKind.Formats .f32)
    (hacc : (0x00000000#32 : BitVec 32) = 0x00000000#32) (hc : S2048.ShapeCasts S2048x1)
    (hb : S2048x1.Broadcasts S2048x256) (r : Fin 2048) (j : Fin 256) :
    broadcastTo S2048x256 (shapeCast S2048x1
        (multiReduction (F := Ideal) .add [1] S2048 w 0x00000000#32 h hφ hacc) hc) hb (ix2 r j)
      = ∑ d : Fin 256, w (ix2 r d) := by
  refine (broadcastTo_a1_ab_apply _ hb r j).trans ?_
  refine (shapeCast_a_a1_apply _ hc r 0).trans ?_
  exact laneSum_apply w h hφ hacc r

/-- Column sums of a 256 × 256 matrix kept as a row and repeated down the 2048 rows: at (r, j) the sum of column j. -/
theorem colSumSpread_apply (w : FVec Ideal S256x256 .f32) (h : S256x256.Reduces [0] S256) (hφ : FKind.Formats .f32)
    (hacc : (0x00000000#32 : BitVec 32) = 0x00000000#32) (hc : S256.ShapeCasts S1x256)
    (hb : S1x256.Broadcasts S2048x256) (r : Fin 2048) (j : Fin 256) :
    broadcastTo S2048x256 (shapeCast S1x256
        (multiReduction (F := Ideal) .add [0] S256 w 0x00000000#32 h hφ hacc) hc) hb (ix2 r j)
      = ∑ d : Fin 256, w (ix2 d j) := by
  refine (broadcastTo_1b_ab_apply _ hb r j).trans ?_
  refine (shapeCast_a_1a_apply _ hc 0 j).trans ?_
  exact colSum256_apply w h hφ hacc j

/-- A matrix divided by its own row sums (the sums kept as a column and repeated along the lanes): at (r, k) the
    entry over the sum of row r. -/
theorem rowNormalize_apply (w : FVec Ideal S2048x256 .f32) (h : S2048x256.Reduces [1] S2048) (hφ : FKind.Formats .f32)
    (hacc : (0x00000000#32 : BitVec 32) = 0x00000000#32) (hc : S2048.ShapeCasts S2048x1)
    (hb : S2048x1.Broadcasts S2048x256) (r : Fin 2048) (k : Fin 256) :
    divf w (broadcastTo S2048x256 (shapeCast S2048x1
        (multiReduction (F := Ideal) .add [1] S2048 w 0x00000000#32 h hφ hacc) hc) hb) (ix2 r k)
      = Ideal.div (w (ix2 r k)) (∑ j : Fin 256, w (ix2 r j)) :=
  congrArg (Ideal.div (w (ix2 r k))) (rowSumSpread_apply w h hφ hacc hc hb r k)

/-! ## The Student-t kernel, entry by entry -/

/-- With A the squared norms of the rows, B those of the centroids and M the inner products, all spread over the
    tile, the kernel writes 1 / (1 + max (A + B − 2·M) 0) entry by entry; its words for 1 and 0 are the numbers. -/
theorem studentT_apply (A B M : FVec Ideal S2048x256 .f32) (r : Fin 2048) (j : Fin 256) :
    divf (F := Ideal) (broadcast S2048x256 (Scalar.ofBits (F := Ideal) .f32 0x3F800000#32))
        (addf (F := Ideal) (broadcast S2048x256 (Scalar.ofBits (F := Ideal) .f32 0x3F800000#32))
          (maximumf (F := Ideal)
            (subf (F := Ideal) (addf (F := Ideal) A B)
              (mulf (F := Ideal) (broadcast S2048x256 (Scalar.ofBits (F := Ideal) .f32 0x40000000#32)) M))
            (broadcast S2048x256 (Scalar.ofBits (F := Ideal) .f32 0x00000000#32)))) (ix2 r j)
      = Ideal.div 1 (1 + max ((A (ix2 r j) + B (ix2 r j)) - two * M (ix2 r j)) 0) := by
  show Ideal.div (Ideal.ofBits .f32 0x3F800000#32) (Ideal.ofBits .f32 0x3F800000#32
      + max ((A (ix2 r j) + B (ix2 r j)) - Ideal.ofBits .f32 0x40000000#32 * M (ix2 r j)) (Ideal.ofBits .f32 0x00000000#32)) = _
  rw [word_one, word_zero]
  rfl

/-! ## The product of the tile with the transposed centroids -/

/-- Row coordinate of the left operand's entry the product reads: the result's row. -/
theorem product_lhs_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

/-- Column coordinate of the right operand's entry the product reads: the result's column. -/
theorem product_rhs_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The matrix unit's product into a zero accumulator, at (r, k): the sum over the 256 features of the products. -/
theorem product_apply (a : FVec Ideal S2048x256 .bf16) (b : FVec Ideal S256x256 .bf16) (r : Fin 2048) (k : Fin 256) :
    matmul (F := Ideal) dot_S2048x256_S256x256_S2048x256_1_0_0_1_n_n none a b
        (constant (F := Ideal) S2048x256 .f32 0x00000000#32) (ix2 r k)
      = ∑ d : Fin 256, a (ix2 r d) * b (ix2 d k) := by
  simp only [matmul]
  rw [Ideal.matmul_constant_zero_apply,
    ← Equiv.sum_comp (contrEquiv1 dot_S2048x256_S256x256_S2048x256_1_0_0_1_n_n 256 rfl rfl).symm]
  refine Finset.sum_congr rfl fun d _ => ?_
  have hd := contrEquiv1_symm_val dot_S2048x256_S256x256_S2048x256_1_0_0_1_n_n 256 rfl rfl d
  have el : dot_S2048x256_S256x256_S2048x256_1_0_0_1_n_n.lhsIdx (ix2 r k)
      ((contrEquiv1 dot_S2048x256_S256x256_S2048x256_1_0_0_1_n_n 256 rfl rfl).symm d) = ix2 r d :=
    funext fun ax => Fin.ext (by
      match ax with
      | ⟨0, _⟩ => exact product_lhs_row _ _
      | ⟨1, _⟩ => exact (dot_S2048x256_S256x256_S2048x256_1_0_0_1_n_n.lhsIdx_val_of_single rfl _ _).trans hd)
  have er : dot_S2048x256_S256x256_S2048x256_1_0_0_1_n_n.rhsIdx (ix2 r k)
      ((contrEquiv1 dot_S2048x256_S256x256_S2048x256_1_0_0_1_n_n 256 rfl rfl).symm d) = ix2 d k :=
    funext fun ax => Fin.ext (by
      match ax with
      | ⟨0, _⟩ => exact (dot_S2048x256_S256x256_S2048x256_1_0_0_1_n_n.rhsIdx_val_of_single rfl _ _).trans hd
      | ⟨1, _⟩ => exact product_rhs_col _ _)
  rw [el, er]

/-- The squared assignments over the masses (the row of masses repeated down the rows): at (a, b) the sharpened
    entry of row a at cluster b. -/
theorem sharpen_apply (v0 : FVec Ideal S2048x256 .f32) (v2 : FVec Ideal S1x256 .f32) (h1 : S2048x256.ShapeCasts S2048x256)
    (h2 : S1x256.ShapeCasts S1x256) (hb : S1x256.Broadcasts S2048x256) (a : Fin 2048) (b : Fin 256) :
    divf (F := Ideal) (mulf (F := Ideal) (shapeCast S2048x256 v0 h1) (shapeCast S2048x256 v0 h1))
        (broadcastTo S2048x256 (shapeCast S1x256 v2 h2) hb) (ix2 a b)
      = sharp (fun j => v0 (ix2 a j)) (fun j => v2 (ix2 0 j)) b := by
  show Ideal.div (shapeCast S2048x256 v0 h1 (ix2 a b) * shapeCast S2048x256 v0 h1 (ix2 a b))
      (broadcastTo S2048x256 (shapeCast S1x256 v2 h2) hb (ix2 a b)) = Ideal.div (v0 (ix2 a b) * v0 (ix2 a b)) (v2 (ix2 0 b))
  rw [shapeCast_self, broadcastTo_1b_ab_apply, shapeCast_self]

/-- The assignment the first kernel stores, at point r of the tile and cluster k. -/
theorem assign_apply (x0 : Vec Ideal S2048x256 .f32) (x1 : Vec Ideal S256x256 .f32) (r : Fin 2048) (k : Fin 256) :
    k0_pay1 (F := Ideal) x0 x1 (ix2 r k) = soft (fun d => x0 (ix2 r d)) (fun j d => x1 (ix2 d j)) k := by
  unfold k0_pay1
  refine (rowNormalize_apply _ _ _ _ _ _ r k).trans ?_
  unfold soft
  refine congrArg₂ Ideal.div ?_ (Finset.sum_congr rfl fun j _ => ?_)
  all_goals
    refine (studentT_apply _ _ _ r _).trans ?_
    unfold tKer Cert.SoftAssign.dist
    refine congrArg (fun t => Ideal.div 1 (1 + max t 0)) ?_
    refine congrArg₂ (· - ·) (congrArg₂ (· + ·) ?_ ?_) (congrArg (two * ·) ?_)
    · exact rowSumSpread_apply _ _ _ _ _ _ r _
    · refine (colSumSpread_apply _ _ _ _ _ _ r _).trans ?_
      rw [shapeCast_self]
      rfl
    · refine (product_apply _ _ r _).trans ?_
      rw [shapeCast_self]
      rfl

/-- The cleared row of masses is zero. -/
theorem cleared_apply (j : S1x256.Idx) : k0_pay2 (F := Ideal) j = 0 := by
  unfold k0_pay2
  exact word_zero

/-- The running row of masses after a tile: what it held plus the tile's column sums. -/
theorem accumulate_apply (x0 : Vec Ideal S2048x256 .f32) (x1 : Vec Ideal S256x256 .f32) (acc : Vec Ideal S1x256 .f32) (k : Fin 256) :
    k0_pay3 (F := Ideal) x0 x1 acc (ix2 0 k) = acc (ix2 0 k) + ∑ r : Fin 2048, k0_pay1 (F := Ideal) x0 x1 (ix2 r k) := by
  unfold k0_pay3
  refine congrArg₂ (· + ·) (congrFun (shapeCast_self acc _) (ix2 0 k)) ?_
  refine (shapeCast_a_1a_apply _ _ 0 k).trans ?_
  exact colSum_apply (k0_pay1 (F := Ideal) x0 x1) _ _ _ k

/-- The target the second kernel stores, at point r of the tile and cluster k. -/
theorem target_apply (v0 : Vec Ideal S2048x256 .f32) (v2 : Vec Ideal S1x256 .f32) (r : Fin 2048) (k : Fin 256) :
    k1_pay1 (F := Ideal) v0 v2 (ix2 r k) = target (fun j => v0 (ix2 r j)) (fun j => v2 (ix2 0 j)) k := by
  unfold k1_pay1
  refine (rowNormalize_apply _ _ _ _ _ _ r k).trans ?_
  unfold target
  exact congrArg₂ Ideal.div (sharpen_apply v0 v2 _ _ _ r k) (Finset.sum_congr rfl fun j _ => sharpen_apply v0 v2 _ _ _ r j)

end Cert.KernelIdeal.Payload

end
-- ==== Proof.Pieces.lean ====
/-
  What the first kernel's body leaves in its two output blocks, in each of its two cases, as the named arithmetic
  of what it loaded.

  At the first grid point the body clears the row of column masses, reads the cleared row back and adds the tile's column
  sums to it; at every later point it reads the row the point before left and adds to that. In both cases the
  assignment tile is one store of the whole block. Every load and store goes through the whole staging buffer, so a
  load reads the contents, the last covering store decides what the buffer holds, and a load after a covering store
  reads what was stored.
-/
import proofs.«103345_j72292889527017_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The two zero offsets of a whole-buffer rectangle, as the constant function. -/
theorem zero_offsets : (![0, 0] : Fin 2 → Nat) = fun _ => 0 := by
  funext a; match a with | ⟨0, _⟩ => rfl | ⟨1, _⟩ => rfl

/-- First point: the assignment block is the tile's assignments. -/
theorem tile_first (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S1x256 .f32) (harg4 : arg4.IsWhole) (hc0 : cond0_0 i)
    (x0 : Vec F S2048x256 .f32) (x1 : Vec F S256x256 .f32) :
    out0_A_2 (F := F) c i arg1 harg1 arg2 harg2 arg3 harg3 arg4 harg4 hc0 x0 x1 = k0_pay1 x0 x1 := by
  unfold out0_A_2
  rw [View.read_writes_eq_canon _ _ _ (cover0_A_2 c i arg1 harg1 arg2 harg2 arg3 harg3 arg4 harg4 hc0 x0 x1)]
  unfold kernelRun0_A
  dsimp only
  rw [View.canon_unit_zero zero_offsets]
  simp only [View.readAt_eq_ld, harg1.read_unread, harg2.read_unread]
  rw [View.ld_unit_zero (S := S2048x256) zero_offsets, View.ld_unit_zero (S := S256x256) zero_offsets]

/-- First point: the row of masses is the cleared row plus the tile's column sums. -/
theorem mass_first (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S1x256 .f32) (harg4 : arg4.IsWhole) (hc0 : cond0_0 i)
    (x0 : Vec F S2048x256 .f32) (x1 : Vec F S256x256 .f32) :
    out0_A_3 (F := F) c i arg1 harg1 arg2 harg2 arg3 harg3 arg4 harg4 hc0 x0 x1 = k0_pay3 x0 x1 k0_pay2 := by
  unfold out0_A_3
  rw [View.read_writes_eq_canon _ _ _ (cover0_A_3 c i arg1 harg1 arg2 harg2 arg3 harg3 arg4 harg4 hc0 x0 x1)]
  unfold kernelRun0_A
  dsimp only
  sl_unfold_run_names
  rw [View.canon_cons_unit_zero zero_offsets]
  simp only [View.readAt_eq_ld, harg1.read_unread, harg2.read_unread]
  rw [View.readCov_unit_zero _ zero_offsets, View.ld_unit_zero (S := S2048x256) zero_offsets,
    View.ld_unit_zero (S := S256x256) zero_offsets]

/-- A later point: the assignment block is the tile's assignments. -/
theorem tile_later (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S1x256 .f32) (harg4 : arg4.IsWhole) (hc0 : ¬cond0_0 i)
    (x0 : Vec F S2048x256 .f32) (x1 : Vec F S256x256 .f32) (xo3 : Vec F S1x256 .f32) :
    out0_B_2 (F := F) c i arg1 harg1 arg2 harg2 arg3 harg3 arg4 harg4 hc0 x0 x1 xo3 = k0_pay1 x0 x1 := by
  unfold out0_B_2
  rw [View.read_writes_eq_canon _ _ _ (cover0_B_2 c i arg1 harg1 arg2 harg2 arg3 harg3 arg4 harg4 hc0 x0 x1 xo3)]
  unfold kernelRun0_B
  dsimp only
  rw [View.canon_unit_zero zero_offsets]
  simp only [View.readAt_eq_ld, harg1.read_unread, harg2.read_unread]
  rw [View.ld_unit_zero (S := S2048x256) zero_offsets, View.ld_unit_zero (S := S256x256) zero_offsets]

/-- A later point: the row of masses is what the point before left plus the tile's column sums. -/
theorem mass_later (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S1x256 .f32) (harg4 : arg4.IsWhole) (hc0 : ¬cond0_0 i)
    (x0 : Vec F S2048x256 .f32) (x1 : Vec F S256x256 .f32) (xo3 : Vec F S1x256 .f32) :
    out0_B_3 (F := F) c i arg1 harg1 arg2 harg2 arg3 harg3 arg4 harg4 hc0 x0 x1 xo3 = k0_pay3 x0 x1 xo3 := by
  unfold out0_B_3
  rw [View.read_writes_eq_canon _ _ _ (cover0_B_3 c i arg1 harg1 arg2 harg2 arg3 harg3 arg4 harg4 hc0 x0 x1 xo3)]
  unfold kernelRun0_B
  dsimp only
  sl_unfold_run_names
  rw [View.canon_unit_zero zero_offsets]
  simp only [View.readAt_eq_ld, harg1.read_unread, harg2.read_unread, harg4.read_unread]
  rw [View.ld_unit_zero (S := S2048x256) zero_offsets, View.ld_unit_zero (S := S256x256) zero_offsets,
    View.ld_unit_zero (S := S1x256) zero_offsets]

end Cert.KernelIdeal.Pieces

end
-- ==== Proof.FirstCall.lean ====
/-
  The first call's two result arrays.

  The grid has 32 points; point t works on the tile of rows 2048·t … 2048·t + 2047 of the points and on the whole
  array of transposed centroids. It writes the tile's assignments back at once, so the assignment array ends as the
  assignment of every row. The row of column masses stays in its buffer from point to point: cleared at the first point,
  it holds after point n the sum over tiles 0 … n of each tile's column sums, and is written back after the last
  point only, when that running sum is the sum over all 65536 rows.
-/
import proofs.«103345_j72292889527017_1_alg».proof.Proof.Spec
import proofs.«103345_j72292889527017_1_alg».proof.Proof.Payload
import proofs.«103345_j72292889527017_1_alg».proof.Proof.Pieces
import proofs.«103345_j72292889527017_1_alg».proof.Proof.Gen.KernelIdeal.Frame
import Idealize.ShloMosaic.Lib.Pipeline.Value
import Idealize.ShloMosaic.Lib.ValueIdx

set_option maxRecDepth 16384

noncomputable section

namespace Cert.KernelIdeal.FirstCall

open Idealize.ShloMosaic Idealize.ShloMosaic.TcCoe Idealize.ShloMosaic.ValueIdx Idealize.SL.Sem
open Idealize.ShloMosaic.Pipeline (Dat)
open Cert.KernelIdeal Cert.KernelIdeal.Gen Cert.SoftAssign

variable (V : (c : Dev nD) → (b : Ref sig .tc) → Buf (Elt Ideal) ((c : Thread nD τ).loc b))

/-- The centroids read back out of their transposed array: entry (k, d) is the transposed array's (d, k). -/
def untransposed (ct : Cen.Idx → EReal) : Cen.Idx → EReal :=
  fun i => ct (ix2 ⟨(i 1).val, idx2_lt1 i⟩ ⟨(i 0).val, idx2_lt0 i⟩)

theorem cen_untransposed (ct : Cen.Idx → EReal) (k d : Fin 256) : cen (untransposed ct) k d = ct (ix2 d k) := rfl

/-- Where each window's block sits at point t: the points' and the assignments' tiles move down the rows with t; the
    centroids and the row of masses never move. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The tile of points at point t, entry (r, d): row 2048·t + r of the points. -/
theorem points_tile (c : Dev nD) (t : Fin cfg0.N) (r : Fin 2048) (d : Fin 256) :
    (iblk0 V c 0 t : Vec Ideal S2048x256 .f32) (ix2 r d) = rowN (V c main_arg0) (2048 * t.val + r.val) d := by
  have hN : t.val < 32 := lt_of_lt_of_eq t.isLt (show cfg0.N = 32 from N_0)
  obtain ⟨e0, e1, -⟩ := block_indices t
  unfold rowN
  rw [dif_pos (by have := r.isLt; omega)]
  unfold iblk0 row
  rw [View.read_apply]
  show V c main_arg0 _ = V c main_arg0 _
  refine congrArg (V c main_arg0) (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 256 + 1 * d.val = d.val; rw [e1]; omega

/-- The centroids' block at any point is the whole transposed array. -/
theorem centroids_block (c : Dev nD) (t : Fin cfg0.N) (d k : Fin 256) :
    (iblk0 V c 1 t : Vec Ideal S256x256 .f32) (ix2 d k) = V c main_v0 (ix2 d k) := by
  obtain ⟨-, -, e0, e1, -⟩ := block_indices t
  unfold iblk0
  rw [View.read_apply]
  show V c main_v0 _ = V c main_v0 _
  refine congrArg (V c main_v0) (funext fun a => Fin.ext ?_)
  match a with
  | ⟨0, _⟩ => show win0_1.index t (0 : Fin 2) * 256 + 1 * d.val = d.val; rw [e0]; omega
  | ⟨1, _⟩ => show win0_1.index t (1 : Fin 2) * 256 + 1 * k.val = k.val; rw [e1]; omega

/-! ## One tile, over variables: a tile whose rows are rows n0 … n0 + 2047 of the points -/

/-- The tile's assignments are the assignments of those rows. -/
theorem tile_assign (x0 : Vec Ideal S2048x256 .f32) (x1 : Vec Ideal S256x256 .f32) (z : Pts.Idx → EReal) (ct : Cen.Idx → EReal)
    (n0 : ℕ) (h0 : ∀ (r : Fin 2048) (d : Fin 256), x0 (ix2 r d) = rowN z (n0 + r.val) d)
    (h1 : ∀ d k : Fin 256, x1 (ix2 d k) = ct (ix2 d k)) (r : Fin 2048) (k : Fin 256) :
    k0_pay1 (F := Ideal) x0 x1 (ix2 r k) = soft (rowN z (n0 + r.val)) (cen (untransposed ct)) k := by
  rw [Payload.assign_apply]
  have e0 : (fun d => x0 (ix2 r d)) = rowN z (n0 + r.val) := funext fun d => h0 r d
  have e1 : (fun j d => x1 (ix2 d j)) = cen (untransposed ct) := funext fun j => funext fun d => h1 d j
  rw [e0, e1]

/-- The tile's contribution to the mass of cluster k. -/
def tileMass (z : Pts.Idx → EReal) (ct : Cen.Idx → EReal) (s : ℕ) (k : Fin 256) : EReal :=
  ∑ r : Fin 2048, soft (rowN z (2048 * s + r.val)) (cen (untransposed ct)) k

/-- The running masses after tile n: tiles 0 … n added up. -/
def massUpTo (z : Pts.Idx → EReal) (ct : Cen.Idx → EReal) (n : ℕ) (k : Fin 256) : EReal :=
  ∑ s ∈ Finset.range (n + 1), tileMass z ct s k

/-- Adding a tile's column sums to a row. -/
theorem tile_accumulate (x0 : Vec Ideal S2048x256 .f32) (x1 : Vec Ideal S256x256 .f32) (acc : Vec Ideal S1x256 .f32)
    (z : Pts.Idx → EReal) (ct : Cen.Idx → EReal) (s : ℕ)
    (h0 : ∀ (r : Fin 2048) (d : Fin 256), x0 (ix2 r d) = rowN z (2048 * s + r.val) d)
    (h1 : ∀ d k : Fin 256, x1 (ix2 d k) = ct (ix2 d k)) (k : Fin 256) :
    k0_pay3 (F := Ideal) x0 x1 acc (ix2 0 k) = acc (ix2 0 k) + tileMass z ct s k := by
  rw [Payload.accumulate_apply]
  exact congrArg (acc (ix2 0 k) + ·) (Finset.sum_congr rfl fun r _ => tile_assign x0 x1 z ct (2048 * s) h0 h1 r k)

/-! ## The grid -/

/-- At the first point: the tile's assignments, and the cleared row plus the tile's column sums. -/
theorem outs_first (c : Dev nD) (t : Fin cfg0.N) (h0 : t.val % 32 = 0) :
    outsAt0 V c t.val t.isLt
      = (k0_pay1 (F := Ideal) (iblk0 V c 0 t) (iblk0 V c 1 t),
         k0_pay3 (F := Ideal) (iblk0 V c 0 t) (iblk0 V c 1 t) (k0_pay2 (F := Ideal))) := by
  rw [outsAt0_A V c t h0,
    Pieces.tile_first (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t),
    Pieces.mass_first (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)]

/-- At a later point: the tile's assignments, and what the point before left plus the tile's column sums. -/
theorem outs_later (c : Dev nD) (t : Fin cfg0.N) (h0 : ¬t.val % 32 = 0) :
    outsAt0 V c t.val t.isLt
      = (k0_pay1 (F := Ideal) (iblk0 V c 0 t) (iblk0 V c 1 t),
         k0_pay3 (F := Ideal) (iblk0 V c 0 t) (iblk0 V c 1 t) (outsAt0 V c (t.val - 1) (Nat.lt_of_le_of_lt (Nat.sub_le _ _) t.isLt)).2) := by
  rw [outsAt0_B V c t h0,
    Pieces.tile_later (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2,
    Pieces.mass_later (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2]

/-- After any point the assignment block holds the point's tile of assignments. -/
theorem assign_block (c : Dev nD) (t : Fin cfg0.N) :
    (outsAt0 V c t.val t.isLt).1 = k0_pay1 (F := Ideal) (iblk0 V c 0 t) (iblk0 V c 1 t) := by
  by_cases h0 : t.val % 32 = 0
  · rw [outs_first V c t h0]
  · rw [outs_later V c t h0]

/-- After point n the row of masses holds the running masses of tiles 0 … n: by induction on the point. -/
theorem mass_row (c : Dev nD) : ∀ (n : ℕ) (h : n < cfg0.N) (k : Fin 256),
    (outsAt0 V c n h).2 (ix2 0 k) = massUpTo (V c main_arg0) (V c main_v0) n k
  | 0, h, k => by
    refine (congrFun (congrArg Prod.snd (outs_first V c ⟨0, h⟩ rfl)) (ix2 0 k)).trans ?_
    refine (tile_accumulate (iblk0 V c 0 ⟨0, h⟩) (iblk0 V c 1 ⟨0, h⟩) (k0_pay2 (F := Ideal)) (V c main_arg0) (V c main_v0) 0
      (fun r d => points_tile V c ⟨0, h⟩ r d) (fun d k => centroids_block V c ⟨0, h⟩ d k) k).trans ?_
    rw [Payload.cleared_apply, zero_add]
    unfold massUpTo
    rw [Finset.sum_range_one]
  | n + 1, h, k => by
    have hN : cfg0.N = 32 := N_0
    have hB : ¬(⟨n + 1, h⟩ : Fin cfg0.N).val % 32 = 0 := by dsimp only; omega
    refine (congrFun (congrArg Prod.snd (outs_later V c ⟨n + 1, h⟩ hB)) (ix2 0 k)).trans ?_
    refine (tile_accumulate (iblk0 V c 0 ⟨n + 1, h⟩) (iblk0 V c 1 ⟨n + 1, h⟩) (outsAt0 V c n (Nat.lt_of_succ_lt h)).2
      (V c main_arg0) (V c main_v0) (n + 1)
      (fun r d => points_tile V c ⟨n + 1, h⟩ r d) (fun d k => centroids_block V c ⟨n + 1, h⟩ d k) k).trans ?_
    rw [mass_row c n (Nat.lt_of_succ_lt h) k]
    unfold massUpTo
    rw [Finset.sum_range_succ _ (n + 1)]

/-! ## What is written back, and the arrays after the call -/

theorem rowN_of_lt (z : Pts.Idx → EReal) (n : ℕ) (h : n < 65536) : rowN z n = row z ⟨n, h⟩ := by
  unfold rowN; rw [dif_pos h]

/-- What point t writes back of the assignments is block t of the assignment array. -/
theorem flushed_assign (c : Dev nD) (t : Fin cfg0.N) :
    (dat0 V c).flushed 2 t
      = ((cfg0.win 2).blk t).view.read (Elt Ideal) (Q (V c main_arg0) (untransposed (V c main_v0))) := by
  have hN : t.val < 32 := lt_of_lt_of_eq t.isLt (show cfg0.N = 32 from N_0)
  obtain ⟨-, -, -, -, e4, e5, -⟩ := block_indices t
  show (cfg0.win 2).cut (grid0.coords t) ((dat0 V c).after 2 t) = _
  rw [after0_2, assign_block]
  funext j
  obtain ⟨r, k, rfl⟩ : ∃ (r : Fin 2048) (k : Fin 256), j = ix2 r k := ⟨j 0, j 1, eq_ix2 j⟩
  have hr := r.isLt
  have hemb : ((cfg0.win 2).blk t).view.emb (ix2 r k) = (ix2 (⟨2048 * t.val + r.val, by omega⟩ : Fin 65536) k : Pts.Idx) := by
    funext a; apply Fin.ext
    match a with
    | ⟨0, _⟩ => show win0_2.index t (0 : Fin 2) * 2048 + 1 * r.val = 2048 * t.val + r.val; rw [e4]; omega
    | ⟨1, _⟩ => show win0_2.index t (1 : Fin 2) * 256 + 1 * k.val = k.val; rw [e5]; omega
  show k0_pay1 (F := Ideal) (iblk0 V c 0 t) (iblk0 V c 1 t) (ix2 r k)
    = Q (V c main_arg0) (untransposed (V c main_v0)) (((cfg0.win 2).blk t).view.emb (ix2 r k))
  rw [hemb, Q_apply, ← rowN_of_lt (V c main_arg0) (2048 * t.val + r.val) (by omega)]
  exact tile_assign (iblk0 V c 0 t) (iblk0 V c 1 t) (V c main_arg0) (V c main_v0) (2048 * t.val)
    (fun r d => points_tile V c t r d) (fun d k => centroids_block V c t d k) r k

/-- The row of masses after the last tile. -/
def finalRow (z : Pts.Idx → EReal) (ct : Cen.Idx → EReal) : Row.Idx → EReal :=
  fun j => massUpTo z ct 31 ⟨(j 1).val, idx2_lt1 j⟩

/-- The one write-back of the row of masses, after the last point, writes the running masses of all 32 tiles. -/
theorem flushed_mass (c : Dev nD) (t : Fin cfg0.N) (hf : (cfg0.win 3).flush t = true) :
    (dat0 V c).flushed 3 t
      = ((cfg0.win 3).blk t).view.read (Elt Ideal) (finalRow (V c main_arg0) (V c main_v0)) := by
  have hN : cfg0.N = 32 := N_0
  have h31 : t.val = 31 := by have := (flush0_3 t).mp hf; have := t.isLt; omega
  obtain ⟨-, -, -, -, -, -, e6, e7⟩ := block_indices t
  show (cfg0.win 3).cut (grid0.coords t) ((dat0 V c).after 3 t) = _
  rw [after0_3]
  funext j
  obtain ⟨u, k, rfl⟩ : ∃ (u : Fin 1) (k : Fin 256), j = ix2 u k := ⟨j 0, j 1, eq_ix2 j⟩
  obtain rfl : u = 0 := Subsingleton.elim _ _
  have hemb : ((cfg0.win 3).blk t).view.emb (ix2 0 k) = (ix2 0 k : Row.Idx) := by
    funext a; apply Fin.ext
    match a with
    | ⟨0, _⟩ => show win0_3.index t (0 : Fin 2) * 1 + 1 * 0 = 0; rw [e6]
    | ⟨1, _⟩ => show win0_3.index t (1 : Fin 2) * 256 + 1 * k.val = k.val; rw [e7]; omega
  show (outsAt0 V c t.val t.isLt).2 (ix2 0 k)
    = finalRow (V c main_arg0) (V c main_v0) (((cfg0.win 3).blk t).view.emb (ix2 0 k))
  rw [hemb, mass_row V c t.val t.isLt k]
  show massUpTo _ _ t.val k = massUpTo _ _ 31 k
  rw [h31]

theorem mem_block_assign (t : Fin cfg0.N) (i : S65536x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v1_0).slice (win0_2.rect t)).set ↔ _
  rw [View.set_slice_whole, Rect.mem_set_unit]
  exact Iff.rfl

theorem mem_block_mass (t : Fin cfg0.N) (i : S1x256.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v1_1).slice (win0_3.rect t)).set ↔ _
  rw [View.set_slice_whole, Rect.mem_set_unit]
  exact Iff.rfl

/-- Every row lies in the tile of the point row / 2048. -/
theorem covered_assign (i : S65536x256.Idx) :
    ∃ t : Fin cfg0.N, (cfg0.win 2).flush t = true ∧ i ∈ ((cfg0.win 2).blk t).view.set := by
  have hi0 : (i 0).val < 65536 := (i 0).isLt
  have hi1 : (i 1).val < 256 := (i 1).isLt
  have hN : cfg0.N = 32 := N_0
  let t : Fin cfg0.N := ⟨(i 0).val / 2048, by rw [hN]; omega⟩
  obtain ⟨-, -, -, -, e4, e5, -⟩ := block_indices t
  refine ⟨t, flush0_2 t, ?_⟩
  rw [mem_block_assign]
  intro a
  match a with
  | ⟨0, _⟩ =>
    show win0_2.index t (0 : Fin 2) * 2048 ≤ (i 0).val ∧ (i 0).val < win0_2.index t (0 : Fin 2) * 2048 + 2048
    rw [e4]; show (i 0).val / 2048 * 2048 ≤ (i 0).val ∧ (i 0).val < (i 0).val / 2048 * 2048 + 2048; omega
  | ⟨1, _⟩ =>
    show win0_2.index t (1 : Fin 2) * 256 ≤ (i 1).val ∧ (i 1).val < win0_2.index t (1 : Fin 2) * 256 + 256
    rw [e5]; omega

/-- The last point's block of the row of masses is the whole row. -/
theorem covered_mass (i : S1x256.Idx) :
    ∃ t : Fin cfg0.N, (cfg0.win 3).flush t = true ∧ i ∈ ((cfg0.win 3).blk t).view.set := by
  have hi0 : (i 0).val < 1 := (i 0).isLt
  have hi1 : (i 1).val < 256 := (i 1).isLt
  have hN : cfg0.N = 32 := N_0
  let t : Fin cfg0.N := ⟨31, by rw [hN]; omega⟩
  obtain ⟨-, -, -, -, -, -, e6, e7⟩ := block_indices t
  refine ⟨t, (flush0_3 t).mpr rfl, ?_⟩
  rw [mem_block_mass]
  intro a
  match a with
  | ⟨0, _⟩ =>
    show win0_3.index t (0 : Fin 2) * 1 ≤ (i 0).val ∧ (i 0).val < win0_3.index t (0 : Fin 2) * 1 + 1
    rw [e6]; omega
  | ⟨1, _⟩ =>
    show win0_3.index t (1 : Fin 2) * 256 ≤ (i 1).val ∧ (i 1).val < win0_3.index t (1 : Fin 2) * 256 + 256
    rw [e7]; omega

/-- The assignment array after the call. -/
theorem final_assign (c : Dev nD) :
    (dat0 V c).arrAt 2 cfg0.N = Q (V c main_arg0) (untransposed (V c main_v0)) :=
  (dat0 V c).arrAt_eq_of_cover 2 (Q (V c main_arg0) (untransposed (V c main_v0))) (fun t _ => flushed_assign V c t) covered_assign

/-- The row of masses after the call. -/
theorem final_mass (c : Dev nD) :
    (dat0 V c).arrAt 3 cfg0.N = finalRow (V c main_arg0) (V c main_v0) :=
  (dat0 V c).arrAt_eq_of_cover 3 (finalRow (V c main_arg0) (V c main_v0)) (fun t hf => flushed_mass V c t hf) covered_mass

/-- The running masses after all 32 tiles are the masses over all 65536 points. -/
theorem finalRow_eq (z : Pts.Idx → EReal) (ct : Cen.Idx → EReal) : finalRow z ct = massRow z (untransposed ct) := by
  funext j
  unfold finalRow massRow massUpTo mass tileMass
  show ∑ s ∈ Finset.range 32, ∑ r : Fin 2048, _ = _
  rw [← sum_rows_blocks (fun n => soft (rowN z n) (cen (untransposed ct)) ⟨(j 1).val, idx2_lt1 j⟩)]
  exact Finset.sum_congr rfl fun n _ => by rw [rowN_val]

end Cert.KernelIdeal.FirstCall

end
-- ==== Proof.SecondCall.lean ====
/-
  The second call's result array.

  Point t reads the tile of rows 2048·t … 2048·t + 2047 of the assignment array and the whole row of column masses, and
  writes back the tile of target distributions of those rows: each row's squared assignments over the masses, divided
  by their sum. The 32 tiles fill the array, so it ends as the target distribution of every row of whatever
  assignment array and row of masses the call found.
-/
import proofs.«103345_j72292889527017_1_alg».proof.Proof.Spec
import proofs.«103345_j72292889527017_1_alg».proof.Proof.Payload
import proofs.«103345_j72292889527017_1_alg».proof.Proof.Gen.KernelIdeal.Frame
import Idealize.ShloMosaic.Lib.Pipeline.Value
import Idealize.ShloMosaic.Lib.ValueIdx

set_option maxRecDepth 16384

noncomputable section

namespace Cert.KernelIdeal.SecondCall

open Idealize.ShloMosaic Idealize.ShloMosaic.TcCoe Idealize.ShloMosaic.ValueIdx Idealize.SL.Sem
open Idealize.ShloMosaic.Pipeline (Dat)
open Cert.KernelIdeal Cert.KernelIdeal.Gen Cert.SoftAssign

variable (V : (c : Dev nD) → (b : Ref sig .tc) → Buf (Elt Ideal) ((c : Thread nD τ).loc b))

theorem zero_offsets : (![0, 0] : Fin 2 → Nat) = fun _ => 0 := by
  funext a; match a with | ⟨0, _⟩ => rfl | ⟨1, _⟩ => rfl

/-- Where each window's block sits at point t: the two tiles move down the rows with t, the row of masses never moves. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One tile, over variables: the stored tile is the target distribution of rows n0 … n0 + 2047. -/
theorem tile_target (v0 : Vec Ideal S2048x256 .f32) (v2 : Vec Ideal S1x256 .f32) (q : Pts.Idx → EReal) (m : Row.Idx → EReal)
    (n : Fin 65536) (r : Fin 2048) (h0 : ∀ j : Fin 256, v0 (ix2 r j) = q (ix2 n j))
    (h1 : ∀ j : Fin 256, v2 (ix2 0 j) = m (ix2 0 j)) (k : Fin 256) :
    k1_pay1 (F := Ideal) v0 v2 (ix2 r k) = targetOf q m (ix2 n k) := by
  rw [Payload.target_apply, targetOf_apply]
  have e0 : (fun j => v0 (ix2 r j)) = fun j => q (ix2 n j) := funext h0
  have e1 : (fun j => v2 (ix2 0 j)) = fun j => m (ix2 0 j) := funext h1
  rw [e0, e1]

/-- What point t writes back is block t of the target array of the arrays the call found. -/
theorem flushed_target (c : Dev nD) (t : Fin cfg1.N) :
    (dat1 V c).flushed 2 t
      = ((cfg1.win 2).blk t).view.read (Elt Ideal) (targetOf (V c main_v1_0) (V c main_v1_1)) := by
  have hN : t.val < 32 := lt_of_lt_of_eq t.isLt (show cfg1.N = 32 from N_1)
  obtain ⟨e0, e1, e2, e3, e4, e5⟩ := block_indices t
  show (cfg1.win 2).cut (grid1.coords t) ((dat1 V c).after 2 t) = _
  rw [after1_2]
  unfold out1_2
  rw [View.canon_unit_zero zero_offsets]
  simp only [View.ld_unit_zero (S := S2048x256) zero_offsets, View.ld_unit_zero (S := S1x256) zero_offsets]
  funext j
  obtain ⟨r, k, rfl⟩ : ∃ (r : Fin 2048) (k : Fin 256), j = ix2 r k := ⟨j 0, j 1, eq_ix2 j⟩
  have hr := r.isLt
  have hemb : ((cfg1.win 2).blk t).view.emb (ix2 r k) = (ix2 (⟨2048 * t.val + r.val, by omega⟩ : Fin 65536) k : Pts.Idx) := by
    funext a; apply Fin.ext
    match a with
    | ⟨0, _⟩ => show win1_2.index t (0 : Fin 2) * 2048 + 1 * r.val = 2048 * t.val + r.val; rw [e4]; omega
    | ⟨1, _⟩ => show win1_2.index t (1 : Fin 2) * 256 + 1 * k.val = k.val; rw [e5]; omega
  show k1_pay1 (F := Ideal) (iblk1 V c 0 t) (iblk1 V c 1 t) (ix2 r k)
    = targetOf (V c main_v1_0) (V c main_v1_1) (((cfg1.win 2).blk t).view.emb (ix2 r k))
  rw [hemb]
  refine tile_target (iblk1 V c 0 t) (iblk1 V c 1 t) (V c main_v1_0) (V c main_v1_1) ⟨2048 * t.val + r.val, by omega⟩ r ?_ ?_ k
  · intro j
    unfold iblk1
    rw [View.read_apply]
    show V c main_v1_0 _ = V c main_v1_0 _
    refine congrArg (V c main_v1_0) (funext fun a => Fin.ext ?_)
    match a with
    | ⟨0, _⟩ => show win1_0.index t (0 : Fin 2) * 2048 + 1 * r.val = 2048 * t.val + r.val; rw [e0]; omega
    | ⟨1, _⟩ => show win1_0.index t (1 : Fin 2) * 256 + 1 * j.val = j.val; rw [e1]; omega
  · intro j
    unfold iblk1
    rw [View.read_apply]
    show V c main_v1_1 _ = V c main_v1_1 _
    refine congrArg (V c main_v1_1) (funext fun a => Fin.ext ?_)
    match a with
    | ⟨0, _⟩ => show win1_1.index t (0 : Fin 2) * 1 + 1 * 0 = 0; rw [e2]
    | ⟨1, _⟩ => show win1_1.index t (1 : Fin 2) * 256 + 1 * j.val = j.val; rw [e3]; omega

/-- An index of the array is in point t's block iff each coordinate is in the block's range on its axis. -/
theorem mem_block (t : Fin cfg1.N) (i : S65536x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v2).slice (win1_2.rect t)).set ↔ _
  rw [View.set_slice_whole, Rect.mem_set_unit]
  exact Iff.rfl

/-- Every row lies in the tile of the point row / 2048. -/
theorem covered (i : S65536x256.Idx) :
    ∃ t : Fin cfg1.N, (cfg1.win 2).flush t = true ∧ i ∈ ((cfg1.win 2).blk t).view.set := by
  have hi0 : (i 0).val < 65536 := (i 0).isLt
  have hi1 : (i 1).val < 256 := (i 1).isLt
  have hN : cfg1.N = 32 := N_1
  let t : Fin cfg1.N := ⟨(i 0).val / 2048, by rw [hN]; omega⟩
  obtain ⟨-, -, -, -, e4, e5⟩ := block_indices t
  refine ⟨t, flush1_2 t, ?_⟩
  rw [mem_block]
  intro a
  match a with
  | ⟨0, _⟩ =>
    show win1_2.index t (0 : Fin 2) * 2048 ≤ (i 0).val ∧ (i 0).val < win1_2.index t (0 : Fin 2) * 2048 + 2048
    rw [e4]; show (i 0).val / 2048 * 2048 ≤ (i 0).val ∧ (i 0).val < (i 0).val / 2048 * 2048 + 2048; omega
  | ⟨1, _⟩ =>
    show win1_2.index t (1 : Fin 2) * 256 ≤ (i 1).val ∧ (i 1).val < win1_2.index t (1 : Fin 2) * 256 + 256
    rw [e5]; omega

/-- The result array after the call: the target distribution of the assignment array and row of masses it found. -/
theorem final_target (c : Dev nD) :
    (dat1 V c).arrAt 2 cfg1.N = targetOf (V c main_v1_0) (V c main_v1_1) :=
  (dat1 V c).arrAt_eq_of_cover 2 (targetOf (V c main_v1_0) (V c main_v1_1)) (fun t _ => flushed_target V c t) covered

end Cert.KernelIdeal.SecondCall

end
-- ==== Proof.Results.lean ====
/-
  The program's two results, as functions of the launch memory.

  The first call is entered with the points as launched and the centroids transposed; transposing back gives the
  centroids, so its assignment array is the assignment array of the data and its row of masses the data's column
  masses. The second call is entered with those two arrays, so its result is the target array of the data; and the
  assignment array, which the second call only reads, ends as the first call left it.
-/
import proofs.«103345_j72292889527017_1_alg».proof.Proof.Spec
import proofs.«103345_j72292889527017_1_alg».proof.Proof.FirstCall
import proofs.«103345_j72292889527017_1_alg».proof.Proof.SecondCall
import proofs.«103345_j72292889527017_1_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Results

open Idealize.ShloMosaic Idealize.ShloMosaic.TcCoe Idealize.ShloMosaic.ValueIdx Idealize.SL.Sem
open Idealize.ShloMosaic.Pipeline (Dat)
open Cert.KernelIdeal Cert.KernelIdeal.Gen Cert.SoftAssign

variable (m : (ℓ : Loc nD τ sig) → Buf (Elt Ideal) ℓ) (ρ : Dev nD → PrngReg)

/-- The first call finds the points as launched: the host stretch does not write them. -/
theorem entry_points (c : Dev nD) : V1 m ρ c main_arg0 = m ((c : Thread nD τ).loc main_arg0) := by
  show StableHlo.after hostOps0 (W0 m ρ c) (Proc.devRef .tc main_arg0) = _
  after_results

/-- It finds the centroids transposed. -/
theorem entry_centroids (c : Dev nD) :
    V1 m ρ c main_v0 = transpose S256x256 [1, 0] (m ((c : Thread nD τ).loc main_arg1)) transposes_S256x256_S256x256_1_0 := by
  show StableHlo.after hostOps0 (W0 m ρ c) (Proc.devRef .tc main_v0) = _
  after_results

/-- Transposing back. -/
theorem untransposed_transpose (x : Cen.Idx → EReal) :
    FirstCall.untransposed (transpose S256x256 [1, 0] x transposes_S256x256_S256x256_1_0) = x := by
  funext i
  obtain ⟨k, d, rfl⟩ : ∃ (k d : Fin 256), i = ix2 k d := ⟨i 0, i 1, eq_ix2 i⟩
  show transpose S256x256 [1, 0] x transposes_S256x256_S256x256_1_0 (ix2 d k) = x (ix2 k d)
  exact transpose_apply [1, 0] x transposes_S256x256_S256x256_1_0 (ix2 d k) (ix2 k d)
    (fun b => by match b with | ⟨0, _⟩ => rfl | ⟨1, _⟩ => rfl)

/-- After the first call the assignment array is the data's. -/
theorem assign_array (c : Dev nD) :
    W2 m ρ c (Proc.devRef .tc main_v1_0) = Q (m ((c : Thread nD τ).loc main_arg0)) (m ((c : Thread nD τ).loc main_arg1)) := by
  refine (W2_arr m ρ c 2).trans ?_
  rw [FirstCall.final_assign, entry_points, entry_centroids, untransposed_transpose]

/-- And the row of masses the data's column masses. -/
theorem mass_array (c : Dev nD) :
    W2 m ρ c (Proc.devRef .tc main_v1_1) = massRow (m ((c : Thread nD τ).loc main_arg0)) (m ((c : Thread nD τ).loc main_arg1)) := by
  refine (W2_arr m ρ c 3).trans ?_
  rw [FirstCall.final_mass, FirstCall.finalRow_eq, entry_points, entry_centroids, untransposed_transpose]

/-- The second call's result is the target array of the data. -/
theorem target_result (c : Dev nD) :
    W3 m ρ c (Proc.devRef .tc main_v2) = P (m ((c : Thread nD τ).loc main_arg0)) (m ((c : Thread nD τ).loc main_arg1)) := by
  refine (W3_arr m ρ c 2).trans ?_
  rw [SecondCall.final_target]
  show targetOf (W2 m ρ c (Proc.devRef .tc main_v1_0)) (W2 m ρ c (Proc.devRef .tc main_v1_1)) = _
  rw [assign_array, mass_array]
  rfl

/-- The assignment array ends as the first call left it: the second call only reads it. -/
theorem assign_result (c : Dev nD) :
    W3 m ρ c (Proc.devRef .tc main_v1_0) = Q (m ((c : Thread nD τ).loc main_arg0)) (m ((c : Thread nD τ).loc main_arg1)) :=
  (W3_arr m ρ c 0).trans (((dat1 (V2 m ρ) c).arrAt_in 0 rfl _).trans ((A_eq1 (V2 m ρ) c 0).trans (assign_array m ρ c)))

end Cert.KernelIdeal.Results

end
-- ==== Proof.lean ====
/-
  Soft cluster assignment and its target distribution: a two-call kernel against a one-pass reference, equal on the
  extended reals.

  Both programs compute, for 65536 points z_n and 256 centroids c_k in 256 dimensions, the assignment array
    q_nk = t_nk / Σ_j t_nj,   t_nk = 1 / (1 + max (|z_n|² + |c_k|² − 2⟨z_n, c_k⟩, 0)),
  and the target array p_nk = s_nk / Σ_j s_nj with s_nk = q_nk² / Σ_n' q_n'k.
  The kernel's first call works tile by tile (2048 points at a time) on the transposed centroids, stores each tile of q
  and keeps a running row of the column sums of q, cleared at the first tile and written back after the last; its
  second call reads q and that row and stores p tile by tile. The reference computes everything in one pass and writes
  the Student-t kernel as the power −1 of 1 + d / 1.
  Three facts join the two sides: a bf16 conversion is the identity on exact values and a matrix product into a zero
  accumulator is the plain contraction; 1 + max a 0 is a real at least one or +∞, so its power −1 is its reciprocal;
  and the sum over all points is the sum over the 32 tiles of the tiles' sums, addition of extended reals being
  commutative and associative. No step needs the inputs to be finite.
  The frames of the two kernel programs are the generated ones; the reference's frame is its generated run with the
  results dropped; the ideal pass rewrote nothing, so the preservation claim is trivial.
-/
import proofs.«103345_j72292889527017_1_alg».proof.Defs
import proofs.«103345_j72292889527017_1_alg».proof.Proof.Gen.Kernel
import proofs.«103345_j72292889527017_1_alg».proof.Proof.Gen.Kernel.Skeleton
import proofs.«103345_j72292889527017_1_alg».proof.Proof.Gen.Kernel.Launch
import proofs.«103345_j72292889527017_1_alg».proof.Proof.Gen.Kernel.Points
import proofs.«103345_j72292889527017_1_alg».proof.Proof.Gen.Kernel.Frame
import proofs.«103345_j72292889527017_1_alg».proof.Proof.Gen.KernelIdeal
import proofs.«103345_j72292889527017_1_alg».proof.Proof.Gen.KernelIdeal.Skeleton
import proofs.«103345_j72292889527017_1_alg».proof.Proof.Gen.KernelIdeal.Launch
import proofs.«103345_j72292889527017_1_alg».proof.Proof.Gen.KernelIdeal.Points
import proofs.«103345_j72292889527017_1_alg».proof.Proof.Gen.KernelIdeal.Frame
import proofs.«103345_j72292889527017_1_alg».proof.Proof.Gen.ReferenceIdeal
import proofs.«103345_j72292889527017_1_alg».proof.Proof.Gen.Pre_finite_inputs
import proofs.«103345_j72292889527017_1_alg».proof.Proof.Gen.ReferenceIdeal.Run
import proofs.«103345_j72292889527017_1_alg».proof.Proof.Gen.ReferenceIdeal.Read
import proofs.«103345_j72292889527017_1_alg».proof.Proof.Spec
import proofs.«103345_j72292889527017_1_alg».proof.Proof.RefValue
import proofs.«103345_j72292889527017_1_alg».proof.Proof.ValueRun
import proofs.«103345_j72292889527017_1_alg».proof.Proof.Results
import Idealize.ShloMosaic.Adequacy
import Idealize.ShloMosaic.Init

noncomputable section

namespace Cert.Proof

open Idealize.ShloMosaic Idealize.SL.Sem Cert.SoftAssign

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both programs end with the target array and the assignment array of the data. -/
theorem algebraic : Cert.algebraic_KernelIdeal_ReferenceIdeal := by
  intro m ρ m' ρ' _ hagree
  refine ⟨fun c => P (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Q (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Results.target_result m ρ c),
        (h c).2.1.trans (Cert.KernelIdeal.Results.assign_result m ρ c), (h c).2.2.1, (h c).2.2.2⟩)
      (Cert.KernelIdeal.ValueRun.run_results (F := Ideal) m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.ReferenceIdeal.Read.val_main_v34_eq, Cert.ReferenceIdeal.RefValue.target_eq,
        (hagree c).1, (hagree c).2]
    · rw [(h c).2.1, Cert.ReferenceIdeal.Read.val_main_v25_eq, Cert.ReferenceIdeal.RefValue.assign_eq,
        (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
